-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel

variable [Facts]

def fn {F : FTy → Type} [FloatOps F] (main_arg0 : FVec F S65536x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  main_v3
-- ==== Kernel.lean ====
abbrev S65536x1024 : Shape := ⟨2, ![65536, 1024]⟩
abbrev S1x1024 : Shape := ⟨2, ![1, 1024]⟩
abbrev S4096x512 : Shape := ⟨2, ![4096, 512]⟩
abbrev S1x512 : Shape := ⟨2, ![1, 512]⟩
abbrev S512 : Shape := ⟨1, ![512]⟩
abbrev S1024 : Shape := ⟨1, ![1024]⟩
abbrev S_ : Shape := ⟨0, ![]⟩

abbrev nBuf : Space → Nat
  | .hbm => 21
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S_, .f32⟩
  | .local _ .vmem, ⟨0, _⟩ => ⟨S4096x512, .f32⟩
  | .local _ .vmem, ⟨1, _⟩ => ⟨S4096x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x512_S1x512_0_0 : ∀ a, (![0, 0] : Fin 2 → Nat) a + S1x512.size a ≤ S1x512.size a
  h_S1x512 : 0 < S1x512.numel
  inb_S4096x512_S4096x512_0_0 : ∀ a, (![0, 0] : Fin 2 → Nat) a + S4096x512.size a ≤ S4096x512.size a
  h_S4096x512 : 0 < S4096x512.numel
  shapeCasts_S1x512_S1x512 : S1x512.ShapeCasts S1x512
  reduces_S4096x512_S512 : S4096x512.Reduces [0] S512
  shapeCasts_S512_S1x512 : S512.ShapeCasts S1x512
  shapeCasts_S1x1024_S1024 : S1x1024.ShapeCasts S1024
  bcast_S_S1024 : S_.BroadcastsInDim S1024 (![] : Fin 0 → Fin S1024.rank)
  reducesTo_S1024_S_d0 : S1024.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S65536x1024.size a
  hwx0_0 : ∀ i : grid0.Coords, EltTy.bits .f32 = 32 ∨ (Rect.block (s := S65536x1024) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x1024.size a
  hwx0_1 : ∀ i : grid0.Coords, EltTy.bits .f32 = 32 ∨ (Rect.block (s := S1x1024) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x1024.size a
  hwx0_2 : ∀ i : grid0.Coords, EltTy.bits .f32 = 32 ∨ (Rect.block (s := S1x1024) S1x512.size (cc0_transform_2 i) (hinb0_2 i)).WholeWords (EltTy.packing .f32)

variable [Facts₀]

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S_ : Shape := ⟨0, ![]⟩
abbrev S1024 : Shape := ⟨1, ![1024]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S_, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S65536x1024, .f32⟩
  | .hbm, ⟨8, _⟩ => ⟨S65536x1024, .f32⟩
  | .hbm, ⟨9, _⟩ => ⟨S65536x1024, .f32⟩
  | .hbm, ⟨10, _⟩ => ⟨S_, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S_, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_cst_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_4 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  reducesTo_S65536x1024_S1024_d0 : S65536x1024.ReducesTo [0] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  reducesTo_S1024_S_d0 : S1024.ReducesTo [0] S_

variable [Facts₀]

class Facts : Prop extends Facts₀ where

variable [Facts]
-- ==== Proof.KernelPieces.lean ====
/-
  What one grid point of the column-statistics kernel leaves in its two accumulator blocks, as values.
  The kernel streams a [65536, 1024] array through [4096, 512] blocks; for each of the two 512-column slabs it keeps
  two [1, 512] accumulators, the running column sums and the running column sums of squares.  At the first row
  tile of a slab the accumulators are reset to zero and the tile's column sums are added; at every later row tile
  the tile's column sums are added to what the previous tile left.
-/
import proofs.«151470_j82325933130209_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The zero row the reset stores. -/
abbrev zeroRow : Vec F S1x512 .f32 := broadcast S1x512 (Scalar.ofBits .f32 0x00000000#32)

/-- The column sums of one [4096, 512] tile, as a [1, 512] row. -/
abbrev colSum (x : Vec F S4096x512 .f32) : Vec F S1x512 .f32 :=
  shapeCast S1x512 (multiReduction .add [0] S512 x 0x00000000#32 reduces_S4096x512_S512 (.inl rfl) rfl) shapeCasts_S512_S1x512

/-- The column sums of the squares of one tile. -/
abbrev colSumSq (x : Vec F S4096x512 .f32) : Vec F S1x512 .f32 := colSum (mulf x x)

/-- A later row tile: the sum accumulator holding `s` ends at `s + colSum x`. -/
theorem later_sum (c : Dev nD) (i : grid0.Coords) (a2 : Memref sig .tc .vmem S4096x512 .f32) (h2 : a2.IsWhole)
    (a3 : Memref sig .tc .vmem S1x512 .f32) (h3 : a3.IsWhole) (a4 : Memref sig .tc .vmem S1x512 .f32) (h4 : a4.IsWhole)
    (hc : ¬cond0_0 i) (x : Vec F S4096x512 .f32) (s q : Vec F S1x512 .f32) :
    out0_B_1 c i a2 h2 a3 h3 a4 h4 hc x s q = addf s (colSum x) := by
  unfold out0_B_1
  rw [View.read_writes_eq_canon _ _ _ (cover0_B_1 c i a2 h2 a3 h3 a4 h4 hc x s q)]
  unfold kernelRun0_B
  dsimp only
  rw [View.canon_unit_zero hz]
  unfold k0_pay3
  simp only [View.readAt_eq_ld, h2.read_unread, h3.read_unread, h4.read_unread, View.ld_unit_zero (S := S4096x512) hz,
    View.ld_unit_zero (S := S1x512) hz, shapeCast_self]

/-- A later row tile: the square accumulator holding `q` ends at `q + colSumSq x`. -/
theorem later_sq (c : Dev nD) (i : grid0.Coords) (a2 : Memref sig .tc .vmem S4096x512 .f32) (h2 : a2.IsWhole)
    (a3 : Memref sig .tc .vmem S1x512 .f32) (h3 : a3.IsWhole) (a4 : Memref sig .tc .vmem S1x512 .f32) (h4 : a4.IsWhole)
    (hc : ¬cond0_0 i) (x : Vec F S4096x512 .f32) (s q : Vec F S1x512 .f32) :
    out0_B_2 c i a2 h2 a3 h3 a4 h4 hc x s q = addf q (colSumSq x) := by
  unfold out0_B_2
  rw [View.read_writes_eq_canon _ _ _ (cover0_B_2 c i a2 h2 a3 h3 a4 h4 hc x s q)]
  unfold kernelRun0_B
  dsimp only
  rw [View.canon_unit_zero hz]
  unfold k0_pay4
  simp only [View.readAt_eq_ld, h2.read_unread, h3.read_unread, h4.read_unread, View.ld_unit_zero (S := S4096x512) hz,
    View.ld_unit_zero (S := S1x512) hz, shapeCast_self]

/-- The first row tile of a slab: the sum accumulator is reset, read back, and ends at `0 + colSum x`. -/
theorem first_sum (c : Dev nD) (i : grid0.Coords) (a2 : Memref sig .tc .vmem S4096x512 .f32) (h2 : a2.IsWhole)
    (a3 : Memref sig .tc .vmem S1x512 .f32) (h3 : a3.IsWhole) (a4 : Memref sig .tc .vmem S1x512 .f32) (h4 : a4.IsWhole)
    (hc : cond0_0 i) (x : Vec F S4096x512 .f32) :
    out0_A_1 c i a2 h2 a3 h3 a4 h4 hc x = addf zeroRow (colSum x) := by
  unfold out0_A_1
  rw [View.read_writes_eq_canon _ _ _ (cover0_A_1 c i a2 h2 a3 h3 a4 h4 hc x)]
  unfold kernelRun0_A
  dsimp only
  sl_unfold_words
  rw [View.canon_cons_unit_zero (S := S1x512) hz, View.readCov_unit_zero (S := S1x512) _ hz]
  unfold k0_pay3 k0_pay1
  simp only [View.readAt_eq_ld, h2.read_unread, h3.read_unread, View.ld_unit_zero (S := S4096x512) hz,
    View.ld_unit_zero (S := S1x512) hz, shapeCast_self]

/-- The first row tile of a slab: the square accumulator ends at `0 + colSumSq x`. -/
theorem first_sq (c : Dev nD) (i : grid0.Coords) (a2 : Memref sig .tc .vmem S4096x512 .f32) (h2 : a2.IsWhole)
    (a3 : Memref sig .tc .vmem S1x512 .f32) (h3 : a3.IsWhole) (a4 : Memref sig .tc .vmem S1x512 .f32) (h4 : a4.IsWhole)
    (hc : cond0_0 i) (x : Vec F S4096x512 .f32) :
    out0_A_2 c i a2 h2 a3 h3 a4 h4 hc x = addf zeroRow (colSumSq x) := by
  unfold out0_A_2
  rw [View.read_writes_eq_canon _ _ _ (cover0_A_2 c i a2 h2 a3 h3 a4 h4 hc x)]
  unfold kernelRun0_A
  dsimp only
  sl_unfold_words
  rw [View.canon_cons_unit_zero (S := S1x512) hz, View.readCov_unit_zero (S := S1x512) _ hz]
  unfold k0_pay4 k0_pay2
  simp only [View.readAt_eq_ld, h2.read_unread, h4.read_unread, View.ld_unit_zero (S := S4096x512) hz,
    View.ld_unit_zero (S := S1x512) hz, shapeCast_self]

end Cert.KernelIdeal.Pieces

end
-- ==== Proof.KernelSums.lean ====
/-
  The running contents of the two accumulator blocks, in closed form, at the exact (extended-real) reading.
  Grid point t = 16 * j + i handles row tile i of column slab j.  After it, entry q of the sum accumulator is the sum
  of the array's entries (n, 512 j + q) over the rows n < 4096 (i + 1), and entry q of the square accumulator is the
  sum of their squares over the same rows: by induction on the point, a first tile starting from zero, a later tile
  extending the range by 4096 rows.  Sums of extended reals over a range of naturals are used so that extending the
  range is one lemma (addition of extended reals is commutative and associative, infinities included).
-/
import proofs.«151470_j82325933130209_2_alg».proof.Proof.KernelPieces
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Sums

open Cert.KernelIdeal Cert.KernelIdeal.Gen Cert.KernelIdeal.Pieces

/-- Entry (n, d) of a [65536, 1024] array, zero outside it. -/
def entry (X : S65536x1024.Idx → EReal) (n d : ℕ) : EReal :=
  if h : n < 65536 ∧ d < 1024 then X (ix2 ⟨n, h.1⟩ ⟨d, h.2⟩) else 0

/-- The sum of column d over the first r rows, and of its squares. -/
def rowsSum (X : S65536x1024.Idx → EReal) (r d : ℕ) : EReal := ∑ n ∈ Finset.range r, entry X n d
def rowsSumSq (X : S65536x1024.Idx → EReal) (r d : ℕ) : EReal := ∑ n ∈ Finset.range r, entry X n d * entry X n d

/-- A lane reduction over the row axis of a tile, read at column q, is the sum over the tile's rows. -/
theorem colSum_apply (x : Vec Ideal S4096x512 .f32) (q : Fin 512) :
    colSum x (ix2 (0 : Fin 1) q) = ∑ k : Fin 4096, x (ix2 k q) := by
  refine (shapeCast_addUnit_apply ![512] _ shapeCasts_S512_S1x512 (ix2 (0 : Fin 1) q)).trans ?_
  refine (Ideal.multiReduction_add_single x 0x00000000#32 reduces_S4096x512_S512 (.inl rfl) rfl _).trans ?_
  refine Finset.sum_congr rfl fun k _ => congrArg x ?_
  funext a
  apply Fin.ext
  match a with
  | ⟨0, _⟩ => rfl
  | ⟨1, _⟩ => rfl

variable (m : (ℓ : Loc nD τ sig) → Buf (Elt Ideal) ℓ)

/-- The tile's position, decided over the grid: row tile t mod 16 of column slab t / 16. -/
theorem tile_pos : ∀ t : Fin cfg0.N, win0_0.index t (0 : Fin 2) = t.val % 16 ∧ win0_0.index t (1 : Fin 2) = t.val / 16 :=
  (by decide +kernel : ∀ t : Fin grid0.N, win0_0.index t (0 : Fin 2) = t.val % 16 ∧ win0_0.index t (1 : Fin 2) = t.val / 16)

/-- Entry (k, q) of the tile at point t is entry (4096 (t mod 16) + k, 512 (t / 16) + q) of the array. -/
theorem tile_entry (c : Dev nD) (t : Fin cfg0.N) (k : Fin 4096) (q : Fin 512) :
    (iblk m c 0 t : Vec Ideal S4096x512 .f32) (ix2 k q)
      = entry (V m c main_arg0) (4096 * (t.val % 16) + k.val) (512 * (t.val / 16) + q.val) := by
  have hN : t.val < 32 := lt_of_lt_of_eq t.isLt (show cfg0.N = 32 from N_0)
  have hi := tile_pos t
  have hk := k.isLt
  have hq := q.isLt
  unfold entry
  rw [dif_pos ⟨by omega, by omega⟩]
  unfold iblk
  rw [View.read_apply]
  show V m c main_arg0 _ = V m c main_arg0 _
  congr 1
  funext a
  apply Fin.ext
  match a with
  | ⟨0, _⟩ => show win0_0.index t (0 : Fin 2) * 4096 + 1 * k.val = 4096 * (t.val % 16) + k.val; rw [hi.1]; omega
  | ⟨1, _⟩ => show win0_0.index t (1 : Fin 2) * 512 + 1 * q.val = 512 * (t.val / 16) + q.val; rw [hi.2]; omega

/-- The tile's column sums and column sums of squares at column q, as sums over a range of rows of the array. -/
theorem tile_colSum (c : Dev nD) (t : Fin cfg0.N) (q : Fin 512) :
    colSum (iblk m c 0 t : Vec Ideal S4096x512 .f32) (ix2 (0 : Fin 1) q)
      = ∑ k ∈ Finset.range 4096, entry (V m c main_arg0) (4096 * (t.val % 16) + k) (512 * (t.val / 16) + q.val) := by
  rw [colSum_apply, ← Fin.sum_univ_eq_sum_range (fun k => entry (V m c main_arg0) (4096 * (t.val % 16) + k) (512 * (t.val / 16) + q.val)) 4096]
  exact Finset.sum_congr rfl fun k _ => tile_entry m c t k q

theorem tile_colSumSq (c : Dev nD) (t : Fin cfg0.N) (q : Fin 512) :
    colSumSq (iblk m c 0 t : Vec Ideal S4096x512 .f32) (ix2 (0 : Fin 1) q)
      = ∑ k ∈ Finset.range 4096, entry (V m c main_arg0) (4096 * (t.val % 16) + k) (512 * (t.val / 16) + q.val)
          * entry (V m c main_arg0) (4096 * (t.val % 16) + k) (512 * (t.val / 16) + q.val) := by
  refine (colSum_apply _ q).trans ?_
  rw [← Fin.sum_univ_eq_sum_range (fun k => entry (V m c main_arg0) (4096 * (t.val % 16) + k) (512 * (t.val / 16) + q.val)
    * entry (V m c main_arg0) (4096 * (t.val % 16) + k) (512 * (t.val / 16) + q.val)) 4096]
  refine Finset.sum_congr rfl fun k _ => ?_
  rw [mulf_apply, tile_entry m c t k q]

theorem fst_of_eq {α β : Type} {p : α × β} {a : α} {b : β} (h : p = (a, b)) : p.1 = a := by rw [h]
theorem snd_of_eq {α β : Type} {p : α × β} {a : α} {b : β} (h : p = (a, b)) : p.2 = b := by rw [h]

/-- A first row tile: both accumulators restart from zero. -/
theorem acc_first (c : Dev nD) (t : Fin cfg0.N) (h0 : t.val % 16 = 0) :
    outsAt0 m c t.val t.isLt
      = (addf zeroRow (colSum (iblk m c 0 t : Vec Ideal S4096x512 .f32)), addf zeroRow (colSumSq (iblk m c 0 t : Vec Ideal S4096x512 .f32))) := by
  rw [outsAt0_A m c t h0]
  exact congrArg₂ Prod.mk
    (first_sum (F := Ideal) c (grid0.coords t) (ms0_0 t) (hs0_0 t) (ms0_1 t) (hs0_1 t) (ms0_2 t) (hs0_2 t) ((hcond0_0 t).mpr h0) (iblk m c 0 t))
    (first_sq (F := Ideal) c (grid0.coords t) (ms0_0 t) (hs0_0 t) (ms0_1 t) (hs0_1 t) (ms0_2 t) (hs0_2 t) ((hcond0_0 t).mpr h0) (iblk m c 0 t))

/-- A later row tile: both accumulators extend what the point before left. -/
theorem acc_later (c : Dev nD) (t : Fin cfg0.N) (h0 : ¬t.val % 16 = 0) :
    outsAt0 m c t.val t.isLt
      = (addf (outsAt0 m c (t.val - 1) (Nat.lt_of_le_of_lt (Nat.sub_le _ _) t.isLt)).1 (colSum (iblk m c 0 t : Vec Ideal S4096x512 .f32)),
         addf (outsAt0 m c (t.val - 1) (Nat.lt_of_le_of_lt (Nat.sub_le _ _) t.isLt)).2 (colSumSq (iblk m c 0 t : Vec Ideal S4096x512 .f32))) := by
  rw [outsAt0_B m c t h0]
  exact congrArg₂ Prod.mk
    (later_sum (F := Ideal) c (grid0.coords t) (ms0_0 t) (hs0_0 t) (ms0_1 t) (hs0_1 t) (ms0_2 t) (hs0_2 t) (fun h => h0 ((hcond0_0 t).mp h)) (iblk m c 0 t)
      (outsAt0 m c (t.val - 1) (Nat.lt_of_le_of_lt (Nat.sub_le _ _) t.isLt)).1 (outsAt0 m c (t.val - 1) (Nat.lt_of_le_of_lt (Nat.sub_le _ _) t.isLt)).2)
    (later_sq (F := Ideal) c (grid0.coords t) (ms0_0 t) (hs0_0 t) (ms0_1 t) (hs0_1 t) (ms0_2 t) (hs0_2 t) (fun h => h0 ((hcond0_0 t).mp h)) (iblk m c 0 t)
      (outsAt0 m c (t.val - 1) (Nat.lt_of_le_of_lt (Nat.sub_le _ _) t.isLt)).1 (outsAt0 m c (t.val - 1) (Nat.lt_of_le_of_lt (Nat.sub_le _ _) t.isLt)).2)

/-- The zero row reads as the real zero. -/
theorem zeroRow_apply (y : S1x512.Idx) : (zeroRow : Vec Ideal S1x512 .f32) y = 0 := Ideal.ofBits_zero_f32

/-- After a first row tile the accumulators hold the sums over that tile's 4096 rows. -/
theorem acc_first_eq (c : Dev nD) (n : ℕ) (h : n < cfg0.N) (h0 : n % 16 = 0) (q : Fin 512) :
    (outsAt0 m c n h).1 (ix2 (0 : Fin 1) q) = rowsSum (V m c main_arg0) (4096 * (n % 16 + 1)) (512 * (n / 16) + q.val)
    ∧ (outsAt0 m c n h).2 (ix2 (0 : Fin 1) q) = rowsSumSq (V m c main_arg0) (4096 * (n % 16 + 1)) (512 * (n / 16) + q.val) := by
  have e := acc_first m c ⟨n, h⟩ h0
  have e1 := fst_of_eq e
  have e2 := snd_of_eq e
  constructor
  · rw [show (outsAt0 m c n h).1 = _ from e1, addf_apply, zeroRow_apply, zero_add, tile_colSum m c ⟨n, h⟩ q]
    show ∑ k ∈ Finset.range 4096, entry _ (4096 * (n % 16) + k) (512 * (n / 16) + q.val) = rowsSum _ _ _
    unfold rowsSum
    rw [h0]
    simp only [Nat.mul_zero, Nat.zero_add, Nat.mul_one]
  · rw [show (outsAt0 m c n h).2 = _ from e2, addf_apply, zeroRow_apply, zero_add, tile_colSumSq m c ⟨n, h⟩ q]
    show ∑ k ∈ Finset.range 4096, entry _ (4096 * (n % 16) + k) (512 * (n / 16) + q.val)
      * entry _ (4096 * (n % 16) + k) (512 * (n / 16) + q.val) = rowsSumSq _ _ _
    unfold rowsSumSq
    rw [h0]
    simp only [Nat.mul_zero, Nat.zero_add, Nat.mul_one]

/-- THE ACCUMULATORS after point n: the column sums, and the column sums of squares, over the rows seen so far. -/
theorem acc_eq (c : Dev nD) (n : ℕ) : ∀ (h : n < cfg0.N) (q : Fin 512),
    (outsAt0 m c n h).1 (ix2 (0 : Fin 1) q) = rowsSum (V m c main_arg0) (4096 * (n % 16 + 1)) (512 * (n / 16) + q.val)
    ∧ (outsAt0 m c n h).2 (ix2 (0 : Fin 1) q) = rowsSumSq (V m c main_arg0) (4096 * (n % 16 + 1)) (512 * (n / 16) + q.val) := by
  induction n with
  | zero => exact fun h q => acc_first_eq m c 0 h (Nat.zero_mod 16) q
  | succ n ih =>
    intro h q
    have hN : cfg0.N = 32 := N_0
    by_cases h0 : (n + 1) % 16 = 0
    · exact acc_first_eq m c (n + 1) h h0 q
    · have e := acc_later m c ⟨n + 1, h⟩ h0
      have e1 := fst_of_eq e
      have e2 := snd_of_eq e
      obtain ⟨p1, p2⟩ := ih (Nat.lt_of_succ_lt h) q
      have hm : (n + 1) % 16 = n % 16 + 1 := by omega
      have hd : (n + 1) / 16 = n / 16 := by omega
      constructor
      · rw [show (outsAt0 m c (n + 1) h).1 = _ from e1, addf_apply, tile_colSum m c ⟨n + 1, h⟩ q]
        show (outsAt0 m c n _).1 (ix2 (0 : Fin 1) q) + _ = _
        rw [p1]
        show _ + ∑ k ∈ Finset.range 4096, entry _ (4096 * ((n + 1) % 16) + k) (512 * ((n + 1) / 16) + q.val) = _
        rw [hm, hd]
        unfold rowsSum
        rw [Nat.mul_add (4096) (n % 16 + 1) 1, Nat.mul_one, Finset.sum_range_add]
      · rw [show (outsAt0 m c (n + 1) h).2 = _ from e2, addf_apply, tile_colSumSq m c ⟨n + 1, h⟩ q]
        show (outsAt0 m c n _).2 (ix2 (0 : Fin 1) q) + _ = _
        rw [p2]
        show _ + ∑ k ∈ Finset.range 4096, entry _ (4096 * ((n + 1) % 16) + k) (512 * ((n + 1) / 16) + q.val)
          * entry _ (4096 * ((n + 1) % 16) + k) (512 * ((n + 1) / 16) + q.val) = _
        rw [hm, hd]
        unfold rowsSumSq
        rw [Nat.mul_add (4096) (n % 16 + 1) 1, Nat.mul_one, Finset.sum_range_add]

end Cert.KernelIdeal.Sums

end
-- ==== Proof.KernelValue.lean ====
/-
  What the kernel's program computes, at the exact (extended-real) reading.
  The last row tile of each column slab (the points 16 j + 15) writes the two accumulator blocks back, so the two
  [1, 1024] result arrays of the kernel end holding, at column d, the sum of the input's column d over all 65536
  rows and the sum of its squares.  The host operations after the kernel turn the two arrays into the loss:
  per column (sumsq - sum * sum / 65536) / (65536 - 1), minus one, in absolute value, summed over the columns.
-/
import proofs.«151470_j82325933130209_2_alg».proof.Proof.KernelSums
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.KernelIdeal.Pieces Cert.KernelIdeal.Sums Idealize.ShloMosaic.StableHlo

section Tail

variable {F : FTy → Type} [FloatOps F]

/-- The per-column variance as the kernel's host operations compute it from the two arrays of column statistics. -/
def varOf (s q : FVec F S1x1024 .f32) : FVec F S1024 .f32 :=
  Host.divf (F := F)
    (subf (shapeCast S1024 q shapeCasts_S1x1024_S1024)
      (Host.divf (F := F) (mulf (shapeCast S1024 s shapeCasts_S1x1024_S1024) (shapeCast S1024 s shapeCasts_S1x1024_S1024))
        (broadcastInDim S1024 ![] bcast_S_S1024 (constant (F := F) S_ .f32 0x47800000#32))))
    (broadcastInDim S1024 ![] bcast_S_S1024 (subf (constant (F := F) S_ .f32 0x47800000#32) (constant (F := F) S_ .f32 0x3F800000#32)))

/-- The loss of a vector of variances: the sum over the columns of |variance - 1|. -/
def lossOf (v : FVec F S1024 .f32) : FVec F S_ .f32 :=
  Host.reduceAdd (F := F) (Host.absf (F := F) (subf v (broadcastInDim S1024 ![] bcast_S_S1024 (constant (F := F) S_ .f32 0x3F800000#32))))
    (constant (F := F) S_ .f32 0x00000000#32) reducesTo_S1024_S_d0 h_S_

end Tail

variable (m : (ℓ : Loc nD τ sig) → Buf (Elt Ideal) ℓ) (ρ : Dev nD → PrngReg)

/-- Column d's total over all rows, and its total of squares, as [1, 1024] arrays. -/
def colTotal (X : S65536x1024.Idx → EReal) (i : S1x1024.Idx) : EReal := rowsSum X 65536 (i 1).val
def colTotalSq (X : S65536x1024.Idx → EReal) (i : S1x1024.Idx) : EReal := rowsSumSq X 65536 (i 1).val

-- the sums over 65536 rows are never evaluated: they are compared as terms
attribute [local irreducible] rowsSum rowsSumSq

/-- Where the accumulator blocks sit in their arrays, decided over the grid: row 0, column slab t / 16. -/
theorem acc_pos : ∀ t : Fin cfg0.N, win0_1.index t (0 : Fin 2) = 0 ∧ win0_1.index t (1 : Fin 2) = t.val / 16
    ∧ win0_2.index t (0 : Fin 2) = 0 ∧ win0_2.index t (1 : Fin 2) = t.val / 16 :=
  (by decide +kernel : ∀ t : Fin grid0.N, win0_1.index t (0 : Fin 2) = 0 ∧ win0_1.index t (1 : Fin 2) = t.val / 16
    ∧ win0_2.index t (0 : Fin 2) = 0 ∧ win0_2.index t (1 : Fin 2) = t.val / 16)

/-- After the last row tile of a slab the accumulators hold the totals over all 65536 rows. -/
theorem last_tile (c : Dev nD) (t : Fin cfg0.N) (h15 : t.val % 16 = 15) (y : S1x512.Idx) :
    (outsAt0 m c t.val t.isLt).1 y = rowsSum (V m c main_arg0) 65536 (512 * (t.val / 16) + (y 1).val)
    ∧ (outsAt0 m c t.val t.isLt).2 y = rowsSumSq (V m c main_arg0) 65536 (512 * (t.val / 16) + (y 1).val) := by
  obtain ⟨p, q, rfl⟩ : ∃ (p : Fin 1) (q : Fin 512), y = ix2 p q := ⟨y 0, y 1, eq_ix2 y⟩
  obtain rfl : p = 0 := Subsingleton.elim _ _
  have e := acc_eq m c t.val t.isLt q
  rw [h15] at e
  exact e

/-- What a write-back of the sum accumulator writes is the block of the column totals it covers. -/
theorem flushed_sum (c : Dev nD) (t : Fin cfg0.N) (hf : (cfg0.win 1).flush t = true) :
    (dats m 0 c).flushed 1 t = ((cfg0.win 1).blk t).view.read (Elt Ideal) (colTotal (V m c main_arg0)) := by
  have h15 : t.val % 16 = 15 := (flush0_1 t).mp hf
  have hp := acc_pos t
  show (cfg0.win 1).cut (grid0.coords t) ((dats m 0 c).after 1 t) = _
  rw [after0_1]
  funext y
  refine ((last_tile m c t h15 y).1).trans ?_
  rw [View.read_apply]
  unfold colTotal
  refine congrArg (rowsSum _ 65536) ?_
  show 512 * (t.val / 16) + (y 1).val = win0_1.index t (1 : Fin 2) * 512 + 1 * (y 1).val
  rw [hp.2.1]
  omega

theorem flushed_sq (c : Dev nD) (t : Fin cfg0.N) (hf : (cfg0.win 2).flush t = true) :
    (dats m 0 c).flushed 2 t = ((cfg0.win 2).blk t).view.read (Elt Ideal) (colTotalSq (V m c main_arg0)) := by
  have h15 : t.val % 16 = 15 := (flush0_2 t).mp hf
  have hp := acc_pos t
  show (cfg0.win 2).cut (grid0.coords t) ((dats m 0 c).after 2 t) = _
  rw [after0_2]
  funext y
  refine ((last_tile m c t h15 y).2).trans ?_
  rw [View.read_apply]
  unfold colTotalSq
  refine congrArg (rowsSumSq _ 65536) ?_
  show 512 * (t.val / 16) + (y 1).val = win0_2.index t (1 : Fin 2) * 512 + 1 * (y 1).val
  rw [hp.2.2.2]
  omega

/-- An index of a result array lies in point t's block iff each coordinate lies in the block's range. -/
theorem mem_blk_sum (t : Fin cfg0.N) (i : S1x1024.Idx) :
    i ∈ ((cfg0.win 1).blk t).view.set ↔ ∀ a : Fin 2, win0_1.index t a * S1x512.size a ≤ (i a).val ∧ (i a).val < win0_1.index t a * S1x512.size a + S1x512.size a := by
  show i ∈ ((View.whole main_v0_0).slice (win0_1.rect t)).set ↔ _
  rw [View.set_slice_whole, Rect.mem_set_unit]
  exact Iff.rfl

theorem mem_blk_sq (t : Fin cfg0.N) (i : S1x1024.Idx) :
    i ∈ ((cfg0.win 2).blk t).view.set ↔ ∀ a : Fin 2, win0_2.index t a * S1x512.size a ≤ (i a).val ∧ (i a).val < win0_2.index t a * S1x512.size a + S1x512.size a := by
  show i ∈ ((View.whole main_v0_1).slice (win0_2.rect t)).set ↔ _
  rw [View.set_slice_whole, Rect.mem_set_unit]
  exact Iff.rfl

/-- Column d of a result array is written back by the last row tile of slab d / 512. -/
theorem cover_sum (i : S1x1024.Idx) : ∃ t : Fin cfg0.N, (cfg0.win 1).flush t = true ∧ i ∈ ((cfg0.win 1).blk t).view.set := by
  have h0 : (i 0).val < 1 := (i 0).isLt
  have h1 : (i 1).val < 1024 := (i 1).isLt
  have hN : cfg0.N = 32 := N_0
  obtain ⟨t, ht⟩ : ∃ t : Fin cfg0.N, t.val = 16 * ((i 1).val / 512) + 15 := ⟨⟨16 * ((i 1).val / 512) + 15, by omega⟩, rfl⟩
  have hp := acc_pos t
  refine ⟨t, (flush0_1 t).mpr (by omega), ?_⟩
  rw [mem_blk_sum]
  intro a
  match a with
  | ⟨0, _⟩ => show win0_1.index t (0 : Fin 2) * 1 ≤ (i 0).val ∧ (i 0).val < win0_1.index t (0 : Fin 2) * 1 + 1; rw [hp.1]; omega
  | ⟨1, _⟩ => show win0_1.index t (1 : Fin 2) * 512 ≤ (i 1).val ∧ (i 1).val < win0_1.index t (1 : Fin 2) * 512 + 512; rw [hp.2.1]; omega

theorem cover_sq (i : S1x1024.Idx) : ∃ t : Fin cfg0.N, (cfg0.win 2).flush t = true ∧ i ∈ ((cfg0.win 2).blk t).view.set := by
  have h0 : (i 0).val < 1 := (i 0).isLt
  have h1 : (i 1).val < 1024 := (i 1).isLt
  have hN : cfg0.N = 32 := N_0
  obtain ⟨t, ht⟩ : ∃ t : Fin cfg0.N, t.val = 16 * ((i 1).val / 512) + 15 := ⟨⟨16 * ((i 1).val / 512) + 15, by omega⟩, rfl⟩
  have hp := acc_pos t
  refine ⟨t, (flush0_2 t).mpr (by omega), ?_⟩
  rw [mem_blk_sq]
  intro a
  match a with
  | ⟨0, _⟩ => show win0_2.index t (0 : Fin 2) * 1 ≤ (i 0).val ∧ (i 0).val < win0_2.index t (0 : Fin 2) * 1 + 1; rw [hp.2.2.1]; omega
  | ⟨1, _⟩ => show win0_2.index t (1 : Fin 2) * 512 ≤ (i 1).val ∧ (i 1).val < win0_2.index t (1 : Fin 2) * 512 + 512; rw [hp.2.2.2]; omega

/-- THE TWO RESULT ARRAYS of the kernel after the run: the column totals and the column totals of squares. -/
theorem final_sum (c : Dev nD) : (dats m 0 c).arrAt 1 cfg0.N = colTotal (V m c main_arg0) :=
  (dats m 0 c).arrAt_eq_of_cover 1 (colTotal (V m c main_arg0)) (flushed_sum m c) cover_sum

theorem final_sq (c : Dev nD) : (dats m 0 c).arrAt 2 cfg0.N = colTotalSq (V m c main_arg0) :=
  (dats m 0 c).arrAt_eq_of_cover 2 (colTotalSq (V m c main_arg0)) (flushed_sq m c) cover_sq

/-- The host operations after the kernel, applied to the two result arrays. -/
theorem tail_eq (c : Dev nD) :
    Pipeline.afterTail₀ cfgs (dats m) 0 (V0 m) [hostOps1] c main_v13
      = lossOf (F := Ideal) (varOf (F := Ideal) (colTotal (m ((c.tc : Thread nD τ).loc main_arg0))) (colTotalSq (m ((c.tc : Thread nD τ).loc main_arg0)))) := by
  have w1 : Pipeline.withArrays (cfgs 0).spec c (V0 m c) (fun w => (dats m 0 c).arrAt w (cfgs 0).N) (Proc.devRef .tc main_v0_0)
      = colTotal (m ((c.tc : Thread nD τ).loc main_arg0)) :=
    (Pipeline.withArrays_arr spec0 launch0.win.arr_inj c _ _ 1).trans (final_sum m c)
  have w2 : Pipeline.withArrays (cfgs 0).spec c (V0 m c) (fun w => (dats m 0 c).arrAt w (cfgs 0).N) (Proc.devRef .tc main_v0_1)
      = colTotalSq (m ((c.tc : Thread nD τ).loc main_arg0)) :=
    (Pipeline.withArrays_arr spec0 launch0.win.arr_inj c _ _ 2).trans (final_sq m c)
  unfold Pipeline.afterTail₀
  show StableHlo.after hostOps1 _ (Proc.devRef .tc main_v13) = _
  after_results
  rw [w1, w2]
  rfl

theorem mem_rest : main_v13 ∈ Pipeline.restRefs sig (cfgs 0).spec :=
  Pipeline.mem_restRefs_of main_v13 rfl (fun w => by fin_cases w <;> decide)

/-- THE KERNEL'S RUN, read: every weakly fair execution terminates with the result at the loss of the column
    statistics of the argument, and the argument unchanged. -/
theorem run : θ_run defs (onTc (τ := τ) (main (F := Ideal))) ⟨m, fun _ => 0, ρ⟩ fun r => ∀ c : Dev nD,
      r.2.mem ((c.tc : Thread nD τ).loc main_v13)
        = lossOf (F := Ideal) (varOf (F := Ideal) (colTotal (m ((c.tc : Thread nD τ).loc main_arg0))) (colTotalSq (m ((c.tc : Thread nD τ).loc main_arg0))))
      ∧ r.2.mem ((c.tc : Thread nD τ).loc main_arg0) = m ((c.tc : Thread nD τ).loc main_arg0) :=
  (θ_run defs _ _).mono (fun _ h c => ⟨((h c).2 main_v13 mem_rest).trans (tail_eq m c),
      ((h c).1 0).trans (((dats m 0 c).arrAt_in 0 rfl _).trans ((A_eq m c 0).trans (V_main_arg0 m c)))⟩)
    (run_main m ρ)

end Cert.KernelIdeal.Value

end
-- ==== Proof.RefValue.lean ====
/-
  What the reference program computes, at the exact (extended-real) reading, read one operation at a time:
  per column d the mean is (0 + sum of the column) / 65536, the variance is
  (0 + sum over the rows of (x - mean) * (x - mean)) / 65535, and the loss is the sum over the columns of |variance - 1|.
-/
import proofs.«151470_j82325933130209_2_alg».proof.Proof.KernelValue
import proofs.«151470_j82325933130209_2_alg».proof.Proof.Gen.ReferenceIdeal.Run
import proofs.«151470_j82325933130209_2_alg».proof.Proof.Gen.ReferenceIdeal.Read
import Idealize.ShloMosaic.Lib.ValueIdx

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

/-- The reference's variance of column d: the centred sum of squares over the 65536 rows, divided by 65535. -/
theorem var_apply (X : (⟨S65536x1024, .f32⟩ : BufTy).Contents (Elt Ideal)) (d : Fin 1024) :
    val_main_v9 (F := Ideal) X (ix1 d)
      = Ideal.div (Ideal.ofBits .f32 0x00000000#32 + ∑ k : Fin 65536,
            (X (ix2 k d) - Ideal.div (Ideal.ofBits .f32 0x00000000#32 + ∑ j : Fin 65536, X (ix2 j d)) (Ideal.ofBits .f32 0x47800000#32))
            * (X (ix2 k d) - Ideal.div (Ideal.ofBits .f32 0x00000000#32 + ∑ j : Fin 65536, X (ix2 j d)) (Ideal.ofBits .f32 0x47800000#32)))
          (Ideal.ofBits .f32 0x477FFF00#32) := by
  have i7 : ∀ k : Fin 65536, idx_main_v7 (ix1 d) k = ix2 k d := fun k =>
    funext fun a => Fin.ext (by match a with | ⟨0, _⟩ => rfl | ⟨1, _⟩ => rfl)
  have i0 : ∀ (k j : Fin 65536), idx_main_v0 (idx_main_v3 (idx_main_v4 (ix2 k d))) j = ix2 j d := fun k j =>
    funext fun a => Fin.ext (by match a with | ⟨0, _⟩ => rfl | ⟨1, _⟩ => rfl)
  rw [val_main_v9_apply, val_main_v7_apply, val_main_v8_apply, val_main_cst_2_apply, val_main_cst_1_apply]
  simp only [i7, val_main_v6_apply, val_main_v5_apply, val_main_v4_apply, val_main_v3_apply, val_main_v2_apply,
    val_main_v0_apply, val_main_v1_apply, val_main_cst_0_apply, val_main_cst_apply, i0, Ideal.hostDivf_def, Ideal.subf_def,
    Ideal.mulf_def, Ideal.ofBits_def]

/-- The reference's result is the loss of its vector of variances (the same last three operations as the kernel's host tail). -/
theorem result_eq (X : (⟨S65536x1024, .f32⟩ : BufTy).Contents (Elt Ideal)) :
    val_main_v13 (F := Ideal) X = Cert.KernelIdeal.Value.lossOf (F := Ideal) (val_main_v9 (F := Ideal) X) := rfl

end Cert.ReferenceIdeal.RefValue

end
-- ==== Proof.LibVarianceLaw.lean ====
/- A general law of the extended reals at the ideal instance: for finitely many FINITE values, the
   one-pass form of the unbiased variance, `(Q - S·S/N)/(N-1)` with `S = ∑ x` and `Q = ∑ x²`, equals the
   two-pass form `(∑ (x - S/N)²)/(N-1)`. Over the reals this is the identity
   `∑ (x - μ)² = ∑ x² - 2μ ∑ x + N μ² = Q - S²/N` at `μ = S/N`. It fails at the infinities (both sides
   meet `∞ - ∞` differently), which is why every value is assumed to be a real. -/
import Idealize.ShloMosaic.PureOps.Ideal

noncomputable section

namespace Cert.VarianceLaw

open Idealize.ShloMosaic

/-- The coercion `ℝ → EReal` commutes with finite sums: it is additive and sends `0` to `0`. -/
theorem coe_sum {ι : Type*} (s : Finset ι) (f : ι → ℝ) :
    (((∑ i ∈ s, f i : ℝ)) : EReal) = ∑ i ∈ s, ((f i : ℝ) : EReal) := by
  classical
  induction s using Finset.induction_on with
  | empty => simp
  | insert a s ha ih => rw [Finset.sum_insert ha, Finset.sum_insert ha, EReal.coe_add, ih]

/-- The real identity behind the law: `Q - S·S/N = ∑ (x - S/N)²` when `N` counts the terms. -/
theorem real_variance_identity {ι : Type*} [Fintype ι] (r : ι → ℝ) (N : ℝ)
    (hN : N = (Fintype.card ι : ℝ)) (h0 : N ≠ 0) :
    (∑ i, r i * r i) - ((∑ i, r i) * (∑ i, r i)) * (1 / N)
      = ∑ i, (r i - (∑ j, r j) * (1 / N)) * (r i - (∑ j, r j) * (1 / N)) := by
  set S : ℝ := ∑ j, r j with hS
  have expand : ∀ i, (r i - S * (1 / N)) * (r i - S * (1 / N))
      = r i * r i - (2 * (S * (1 / N))) * r i + (S * (1 / N)) * (S * (1 / N)) := fun i => by ring
  simp only [expand]
  rw [Finset.sum_add_distrib, Finset.sum_sub_distrib, ← Finset.mul_sum, Finset.sum_const,
    Finset.card_univ, nsmul_eq_mul, ← hN, ← hS]
  field_simp
  ring

/-- **The variance law.** For finite values `x i` and `N` the number of terms (`N ≠ 0`, `N ≠ 1`),
    the one-pass unbiased variance equals the two-pass one, every division read as `Ideal.div`. -/
theorem variance_law {ι : Type*} [Fintype ι] (x : ι → EReal) (hx : ∀ i, ∃ r : ℝ, x i = (r : EReal))
    (N : ℝ) (hN : N = (Fintype.card ι : ℝ)) (h0 : N ≠ 0) (h1 : N - 1 ≠ 0) :
    Ideal.div ((∑ i, x i * x i) - Ideal.div ((∑ i, x i) * (∑ i, x i)) (N : EReal))
        ((N : EReal) - ((1 : ℝ) : EReal))
      = Ideal.div (∑ i, (x i - Ideal.div (∑ j, x j) (N : EReal))
          * (x i - Ideal.div (∑ j, x j) (N : EReal))) (((N - 1 : ℝ)) : EReal) := by
  choose r hr using hx
  obtain rfl : x = fun i => ((r i : ℝ) : EReal) := funext hr
  simp only [Ideal.div_coe h0, Ideal.div_coe h1, ← EReal.coe_mul, ← coe_sum, ← EReal.coe_sub]
  rw [real_variance_identity r N hN h0]

end Cert.VarianceLaw

end
-- ==== Proof.Consts.lean ====
/- The float words the two programs spell, read as the extended reals their bit patterns denote
   at the ideal instance (`Ideal.ofBits`, the IEEE binary32 reading of a 32-bit word). They are stated
   once, here, so that no other module unfolds `Ideal.ofBits` or `Ideal.ieee`. -/
import Idealize.ShloMosaic.PureOps.Ideal
import proofs.«151470_j82325933130209_2_alg».proof.Proof.LibVarianceLaw

noncomputable section

namespace Cert.Consts

open Idealize.ShloMosaic

/-- The all-zero word is `+0.0`: sign `+`, exponent field `0`, fraction `0`, so it denotes `0`. -/
theorem ofBits_zero : Ideal.ofBits .f32 0x00000000#32 = 0 := by
  simp [Ideal.ofBits, Ideal.ieee]

/-- `0x3F800000`: exponent field `127` (unbiased `0`), fraction `0`; it denotes `2^23 · 2^(-23) = 1`. -/
theorem ofBits_one : Ideal.ofBits .f32 0x3F800000#32 = ((1 : ℝ) : EReal) := by
  simp [Ideal.ofBits, Ideal.ieee, -EReal.coe_mul]; norm_num

/-- `0x47800000`: exponent field `143` (unbiased `16`), fraction `0`; it denotes `2^16 = 65536`,
    the number of rows summed over. -/
theorem ofBits_65536 : Ideal.ofBits .f32 0x47800000#32 = ((65536 : ℝ) : EReal) := by
  simp [Ideal.ofBits, Ideal.ieee, -EReal.coe_mul]; norm_num

/-- `0x477FFF00`: exponent field `142` (unbiased `15`), fraction `0x7FFF00`; it denotes
    `(2^23 + 0x7FFF00) · 2^(15-23) = 65535`, the unbiased-variance divisor `N - 1`. -/
theorem ofBits_65535 : Ideal.ofBits .f32 0x477FFF00#32 = ((65535 : ℝ) : EReal) := by
  simp [Ideal.ofBits, Ideal.ieee, -EReal.coe_mul]; norm_num

/-- `0x7F800000`: sign `+`, exponent field all ones, fraction `0`; it denotes `+∞`, the bound every
    finite value's absolute value lies strictly below. -/
theorem ofBits_posInf : Ideal.ofBits .f32 0x7F800000#32 = ⊤ := by
  simp [Ideal.ofBits, Ideal.ieee]

end Cert.Consts

end
-- ==== Proof.Finite.lean ====
/- Finiteness read out of the stated precondition. The precondition computes, for the input array `x`,
   the conjunction over every index of `|x i| < +∞` and states that it is true. A conjunction that is
   true is true at each term, so `|x i| < +∞` holds at every index; and an extended real whose absolute
   value `max v (-v)` lies strictly below `⊤` is neither `⊤` nor `⊥`, hence a real. The word for `+∞`
   is read in Proof/Consts.lean; nothing here unfolds the reading of bit patterns. -/
import proofs.«151470_j82325933130209_2_alg».proof.Proof.Gen.Pre_finite_inputs
import proofs.«151470_j82325933130209_2_alg».proof.Proof.Consts
import Idealize.ShloMosaic.Lib.ReduceAll
import Idealize.ShloMosaic.PureOps.Ideal

noncomputable section

namespace Cert.Finite

open Idealize.ShloMosaic

/-- A rank-0 shape has exactly one index: there is no axis to give a coordinate on. -/
instance subsingleton_scalarIdx : Subsingleton Cert.Pre_finite_inputs.S_.Idx :=
  ⟨fun _ _ => funext fun d => d.elim0⟩

/-- An ordered less-than comparison whose word is `1` says its operands are strictly ordered:
    the word is the truth value of `a < b`, and the truth value `false` is the word `0`. -/
theorem lt_of_cmp_olt {a b : EReal} (h : Ideal.cmp .olt a b = 1#1) : a < b := by
  change BitVec.ofBool (decide (a < b)) = 1#1 at h
  by_contra hn
  simp [hn] at h

/-- An extended real whose absolute value `max v (-v)` is strictly below `⊤` is a real:
    at `⊤` the maximum is `⊤`, and at `⊥` it is `-⊥ = ⊤`. -/
theorem real_of_abs_lt_top (v : EReal) (h : max v (-v) < ⊤) : ∃ r : ℝ, v = (r : EReal) := by
  induction v using EReal.rec with
  | bot => simp at h
  | coe r => exact ⟨r, rfl⟩
  | top => simp at h

/-- Under the stated precondition every element of the input is a real number. -/
theorem real_of_pre (x : FVec Ideal Cert.Pre_finite_inputs.S65536x1024 .f32)
    (h : Cert.Pre_finite_inputs.fn (F := Ideal) x = fun _ => 1#1)
    (i : Cert.Pre_finite_inputs.S65536x1024.Idx) : ∃ r : ℝ, x i = (r : EReal) := by
  -- the predicate's value at its one (rank-0) index is a conjunction over all indices of the
  -- comparison words; being true, it is true at index `i`
  have hi := Host.reduce_andi_all _ _ _ _ _
    (congrFun h (fun a => a.elim0 : Cert.Pre_finite_inputs.S_.Idx)) i
  -- at `i` the compared pair is `|x i|` and the broadcast scalar `+∞`
  change Ideal.cmp .olt (max (x i) (-(x i))) (Ideal.ofBits .f32 0x7F800000#32) = 1#1 at hi
  rw [Cert.Consts.ofBits_posInf] at hi
  exact real_of_abs_lt_top (x i) (lt_of_cmp_olt hi)

end Cert.Finite

end
-- ==== Proof.Bridge.lean ====
/-
  The two programs compute one number when every input is finite.
  Per column d, with S the column's total over the N = 65536 rows and Q its total of squares, the kernel computes
  (Q - S * S / N) / (N - 1) and the reference (sum over the rows of (x - S / N) * (x - S / N)) / 65535.  Over the reals
  the centred sum of squares is Q - S * S / N; the law needs every entry to be a real (at an infinite entry the two
  sides differ), which is what the precondition gives.  The constants 65536, 1, 65535 are exact binary values.
  The last operations of the two programs (subtract one, absolute value, sum over the columns) are the same.
-/
import proofs.«151470_j82325933130209_2_alg».proof.Proof.RefValue
import proofs.«151470_j82325933130209_2_alg».proof.Proof.Finite

noncomputable section

open Idealize.ShloMosaic Idealize.ShloMosaic.TcCoe Idealize.SL.Sem Idealize.ShloMosaic.ValueIdx

namespace Cert.Bridge

open Cert.KernelIdeal Cert.KernelIdeal.Facts₀ Cert.KernelIdeal.Value Cert.KernelIdeal.Sums

/-- A column's total over all 65536 rows, as a sum over the row coordinate. -/
theorem rowsSum_full (X : S65536x1024.Idx → EReal) (d : Fin 1024) :
    rowsSum X 65536 d.val = ∑ k : Fin 65536, X (ix2 k d) := by
  unfold rowsSum
  rw [← Fin.sum_univ_eq_sum_range (fun n => entry X n d.val) 65536]
  exact Finset.sum_congr rfl fun k _ => by unfold entry; rw [dif_pos ⟨k.isLt, d.isLt⟩]

theorem rowsSumSq_full (X : S65536x1024.Idx → EReal) (d : Fin 1024) :
    rowsSumSq X 65536 d.val = ∑ k : Fin 65536, X (ix2 k d) * X (ix2 k d) := by
  unfold rowsSumSq
  rw [← Fin.sum_univ_eq_sum_range (fun n => entry X n d.val * entry X n d.val) 65536]
  exact Finset.sum_congr rfl fun k _ => by unfold entry; rw [dif_pos ⟨k.isLt, d.isLt⟩]

-- the sums over 65536 rows are never evaluated: they are compared as terms
attribute [local irreducible] rowsSum rowsSumSq

/-- The kernel's variance of column d, from the column's total and total of squares. -/
theorem kvar_apply (X : S65536x1024.Idx → EReal) (d : Fin 1024) :
    varOf (F := Ideal) (colTotal X) (colTotalSq X) (ix1 d)
      = Ideal.div ((∑ k : Fin 65536, X (ix2 k d) * X (ix2 k d))
            - Ideal.div ((∑ k : Fin 65536, X (ix2 k d)) * (∑ k : Fin 65536, X (ix2 k d))) (Ideal.ofBits .f32 0x47800000#32))
          (Ideal.ofBits .f32 0x47800000#32 - Ideal.ofBits .f32 0x3F800000#32) := by
  have hs : shapeCast S1024 (colTotal X) shapeCasts_S1x1024_S1024 (ix1 d) = ∑ k : Fin 65536, X (ix2 k d) :=
    (shapeCast_dropUnit_apply ![1024] (colTotal X) shapeCasts_S1x1024_S1024 (ix1 d)).trans (rowsSum_full X d)
  have hq : shapeCast S1024 (colTotalSq X) shapeCasts_S1x1024_S1024 (ix1 d) = ∑ k : Fin 65536, X (ix2 k d) * X (ix2 k d) :=
    (shapeCast_dropUnit_apply ![1024] (colTotalSq X) shapeCasts_S1x1024_S1024 (ix1 d)).trans (rowsSumSq_full X d)
  have hb : ∀ y : FVec Ideal S_ .f32, broadcastInDim S1024 ![] bcast_S_S1024 y (ix1 d) = y ix0 := fun y =>
    broadcastInDim_apply _ bcast_S_S1024 y (ix1 d) ix0 (fun a => a.elim0)
  show Ideal.div
      (shapeCast S1024 (colTotalSq X) shapeCasts_S1x1024_S1024 (ix1 d)
        - Ideal.div (shapeCast S1024 (colTotal X) shapeCasts_S1x1024_S1024 (ix1 d) * shapeCast S1024 (colTotal X) shapeCasts_S1x1024_S1024 (ix1 d))
            (broadcastInDim S1024 ![] bcast_S_S1024 (constant (F := Ideal) S_ .f32 0x47800000#32) (ix1 d)))
      (broadcastInDim S1024 ![] bcast_S_S1024 (subf (constant (F := Ideal) S_ .f32 0x47800000#32) (constant (F := Ideal) S_ .f32 0x3F800000#32)) (ix1 d)) = _
  rw [hs, hq, hb, hb]
  rfl

/-- THE LAW, per column: for finite entries the kernel's variance is the reference's. -/
theorem var_eq (X : S65536x1024.Idx → EReal) (hfin : ∀ i, ∃ r : ℝ, X i = (r : EReal)) (d : Fin 1024) :
    varOf (F := Ideal) (colTotal X) (colTotalSq X) (ix1 d) = Cert.ReferenceIdeal.Read.val_main_v9 (F := Ideal) X (ix1 d) := by
  rw [kvar_apply, Cert.ReferenceIdeal.RefValue.var_apply, Cert.Consts.ofBits_zero, zero_add, Cert.Consts.ofBits_65536,
    Cert.Consts.ofBits_one, Cert.Consts.ofBits_65535]
  simp only [zero_add]
  rw [show ((65535 : ℝ) : EReal) = ((65536 - 1 : ℝ) : EReal) by norm_num]
  exact Cert.VarianceLaw.variance_law (fun k : Fin 65536 => X (ix2 k d)) (fun k => hfin _) 65536 (by simp) (by norm_num) (by norm_num)

/-- So for finite inputs the kernel's loss is the reference's. -/
theorem loss_eq (X : S65536x1024.Idx → EReal) (hfin : ∀ i, ∃ r : ℝ, X i = (r : EReal)) :
    lossOf (F := Ideal) (varOf (F := Ideal) (colTotal X) (colTotalSq X)) = Cert.ReferenceIdeal.Read.val_main_v13 (F := Ideal) X := by
  rw [Cert.ReferenceIdeal.RefValue.result_eq]
  refine congrArg (lossOf (F := Ideal)) (funext fun i => ?_)
  rw [eq_ix1 i]
  exact var_eq X hfin (i 0)

end Cert.Bridge

end
-- ==== Proof.lean ====
/-
  The certificate of the column-variance loss kernel against its reference.
  Both programs take x : f32[65536, 1024] and return sum over the 1024 columns of |var_d - 1|, var_d the unbiased
  variance of column d.  The kernel streams x once through a (2, 16) grid of [4096, 512] tiles, accumulating per
  column the total S and the total of squares Q (Proof/KernelPieces, Proof/KernelSums, Proof/KernelValue), and its host
  operations form (Q - S * S / 65536) / (65536 - 1); the reference forms the mean S / 65536 and then
  (sum of (x - mean)^2) / 65535 (Proof/RefValue).  For finite inputs (Proof/Finite: what the precondition says) the two
  variances are one extended real (Proof/LibVarianceLaw, Proof/Consts, Proof/Bridge), and the remaining operations are
  the same on both sides.  The three frames are the generated frame runs; the idealization rewrote nothing.
-/
import proofs.«151470_j82325933130209_2_alg».proof.Defs
import proofs.«151470_j82325933130209_2_alg».proof.Proof.Gen.Kernel
import proofs.«151470_j82325933130209_2_alg».proof.Proof.Gen.Kernel.Skeleton
import proofs.«151470_j82325933130209_2_alg».proof.Proof.Gen.Kernel.Launch
import proofs.«151470_j82325933130209_2_alg».proof.Proof.Gen.Kernel.Points
import proofs.«151470_j82325933130209_2_alg».proof.Proof.Gen.Kernel.Frame
import proofs.«151470_j82325933130209_2_alg».proof.Proof.Gen.KernelIdeal
import proofs.«151470_j82325933130209_2_alg».proof.Proof.Gen.KernelIdeal.Skeleton
import proofs.«151470_j82325933130209_2_alg».proof.Proof.Gen.KernelIdeal.Launch
import proofs.«151470_j82325933130209_2_alg».proof.Proof.Gen.KernelIdeal.Points
import proofs.«151470_j82325933130209_2_alg».proof.Proof.Gen.KernelIdeal.Frame
import proofs.«151470_j82325933130209_2_alg».proof.Proof.Gen.ReferenceIdeal
import proofs.«151470_j82325933130209_2_alg».proof.Proof.Gen.ReferenceIdeal.Run
import proofs.«151470_j82325933130209_2_alg».proof.Proof.Gen.ReferenceIdeal.Read
import proofs.«151470_j82325933130209_2_alg».proof.Proof.Gen.Pre_finite_inputs
import proofs.«151470_j82325933130209_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the exact reading the kernel ends at the loss of its column statistics and the reference at its own term of
    an argument that agrees; under the precondition every entry is a real, and then the two are one extended real. -/
theorem algebraic : Cert.algebraic_KernelIdeal_ReferenceIdeal := by
  intro m ρ m' ρ' hpre hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, hagree c]
  exact (Cert.Bridge.loss_eq _ (fun i => Cert.Finite.real_of_pre _ (hpre c) i)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
